-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩
abbrev S100000x16 : Shape := ⟨2, ![100000, 16]⟩
abbrev S10000x16 : Shape := ⟨2, ![10000, 16]⟩
abbrev S1600000x16 : Shape := ⟨2, ![1600000, 16]⟩
abbrev S1x16 : Shape := ⟨2, ![1, 16]⟩

abbrev nBuf : Space → Nat
  | .hbm => 53
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S100000x1, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x1, .f32⟩
  | .hbm, ⟨33, _⟩ => ⟨S1x64, .f32⟩
  | .hbm, ⟨34, _⟩ => ⟨S100000x64, .f32⟩
  | .hbm, ⟨35, _⟩ => ⟨S100000x1, .f32⟩
  | .hbm, ⟨36, _⟩ => ⟨S100000x16, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x16, .f32⟩
  | .hbm, ⟨46, _⟩ => ⟨S_, .f32⟩
  | .hbm, ⟨47, _⟩ => ⟨S100000x16, .f32⟩
  | .hbm, ⟨48, _⟩ => ⟨S1600000x1, .i32⟩
  | .hbm, ⟨49, _⟩ => ⟨S100000x16, .f32⟩
  | .hbm, ⟨50, _⟩ => ⟨S100000x1, .f32⟩
  | .hbm, ⟨51, _⟩ => ⟨S1x16, .f32⟩
  | .hbm, ⟨52, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S64x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S10000x1, .f32⟩
  | .local _ .vmem, ⟨24, _⟩ => ⟨S10000x1, .f32⟩
  | .local _ .vmem, ⟨25, _⟩ => ⟨S1x16, .f32⟩
  | .local _ .vmem, ⟨26, _⟩ => ⟨S10000x16, .f32⟩
  | .local _ .vmem, ⟨27, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  broadcasts_S10000x1_S10000x128 : S10000x1.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x16, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x16, .f32⟩
  | .hbm, ⟨64, _⟩ => ⟨S_, .f32⟩
  | .hbm, ⟨65, _⟩ => ⟨S100000x16, .f32⟩
  | .hbm, ⟨66, _⟩ => ⟨S1600000x1, .i32⟩
  | .hbm, ⟨67, _⟩ => ⟨S100000x16, .f32⟩
  | .hbm, ⟨68, _⟩ => ⟨S100000x1, .f32⟩
  | .hbm, ⟨69, _⟩ => ⟨S100000x16, .f32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«159741_j49761491091779_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibGraphSteps.lean ====
/-
  Reusable lemmas: the two dense steps of a graph-convolution layer whose rows are scaled BEFORE the product, the
  scaling computed from an edge count inside the step, over the extended reals.

  A layer takes node features x : [n, K], a weight w : [K, N], a bias b : [N], and two per-node degree counts
  (how many edges leave a node, how many arrive). Each count d enters only through the scaling

      scale d = 1 / sqrt (max (d, 1)),

  kept as a column [n, 1]. Between the two steps rows are moved along edges (a gather and a scatter-add), which
  this module does not touch. The steps are

      project   P[r, q] = sum over k < K of (x[r, k] * scale (d[r, 0])) * w[k, q]     (rows scaled, then multiplied)
      finish    F[r, q] = a[r, q] * scale (d[r, 0]) + b[0, q]                          (rows scaled, bias added)
      finishClamped     = max (F[r, q], 0).

  Each is computed twice: on a block of M rows inside a kernel (the column spread by a vector broadcast, the product on
  the matrix unit into zeros) and on the whole array by host operations (the count a vector [n], clamped and inverted
  there, spread by two broadcast_in_dim; a dot_general; the bias spread from [N]). This module reads all the forms at
  an entry (p, q) and finds the displayed formulas. Row r of a result only reads row r of x, a and d, so a block's
  entry and the whole array's entry agree as soon as the rows they are handed agree (the *_transfer lemmas), whatever
  the two row counts are. Everything is generic in the extents.
-/
import proofs.«159741_j49761491091779_1_alg».proof.Proof.LibMatmulNN
import proofs.«159741_j49761491091779_1_alg».proof.Proof.LibDotNN
import proofs.«159741_j49761491091779_1_alg».proof.Proof.LibBroadcastRows
import proofs.«159741_j49761491091779_1_alg».proof.Proof.LibHostBroadcasts
import proofs.«159741_j49761491091779_1_alg».proof.Proof.LibKeepdimsColumn
import Idealize.ShloMosaic.Lib.ValueLayout
import Idealize.ShloMosaic.Lib.Pipeline.Value
import Idealize.ShloMosaic.Lib.ValueIdx
import Idealize.ShloMosaic.PureOps.Ideal.Laws

noncomputable section

namespace Cert.GraphSteps

open Idealize.ShloMosaic Idealize.ShloMosaic.ValueIdx

variable {M K N : ℕ}

/-- The scaling a degree count contributes: 1 / sqrt (max (d, 1)), the literal 1.0 kept as its f32 word. -/
def scale (d : EReal) : EReal := Ideal.rsqrt (max d (Ideal.ofBits .f32 0x3F800000#32))

/-- Rows scaled by their count's scaling, then multiplied by the weight. -/
def project (x : FVec Ideal ⟨2, ![M, K]⟩ .f32) (d : FVec Ideal ⟨2, ![M, 1]⟩ .f32) (w : FVec Ideal ⟨2, ![K, N]⟩ .f32) :
    FVec Ideal ⟨2, ![M, N]⟩ .f32 :=
  fun i => ∑ k : Fin K, x (ix2 (i 0) k) * scale (d (ix2 (i 0) (0 : Fin 1))) * w (ix2 k (i 1))

/-- Rows scaled by their count's scaling, plus the bias row. -/
def finish (a : FVec Ideal ⟨2, ![M, N]⟩ .f32) (d : FVec Ideal ⟨2, ![M, 1]⟩ .f32) (b : FVec Ideal ⟨2, ![1, N]⟩ .f32) :
    FVec Ideal ⟨2, ![M, N]⟩ .f32 :=
  fun i => a (ix2 (i 0) (i 1)) * scale (d (ix2 (i 0) (0 : Fin 1))) + b (ix2 (0 : Fin 1) (i 1))

/-- The same, clamped below at zero (the zero kept as its f32 word). -/
def finishClamped (a : FVec Ideal ⟨2, ![M, N]⟩ .f32) (d : FVec Ideal ⟨2, ![M, 1]⟩ .f32) (b : FVec Ideal ⟨2, ![1, N]⟩ .f32) :
    FVec Ideal ⟨2, ![M, N]⟩ .f32 :=
  fun i => max (finish a d b i) (Ideal.ofBits .f32 0x00000000#32)

theorem project_apply (x : FVec Ideal ⟨2, ![M, K]⟩ .f32) (d : FVec Ideal ⟨2, ![M, 1]⟩ .f32) (w : FVec Ideal ⟨2, ![K, N]⟩ .f32)
    (p : Fin M) (q : Fin N) :
    project x d w (ix2 p q) = ∑ k : Fin K, x (ix2 p k) * scale (d (ix2 p (0 : Fin 1))) * w (ix2 k q) := rfl

theorem finish_apply (a : FVec Ideal ⟨2, ![M, N]⟩ .f32) (d : FVec Ideal ⟨2, ![M, 1]⟩ .f32) (b : FVec Ideal ⟨2, ![1, N]⟩ .f32)
    (p : Fin M) (q : Fin N) :
    finish a d b (ix2 p q) = a (ix2 p q) * scale (d (ix2 p (0 : Fin 1))) + b (ix2 (0 : Fin 1) q) := rfl

theorem finishClamped_apply (a : FVec Ideal ⟨2, ![M, N]⟩ .f32) (d : FVec Ideal ⟨2, ![M, 1]⟩ .f32) (b : FVec Ideal ⟨2, ![1, N]⟩ .f32)
    (p : Fin M) (q : Fin N) :
    finishClamped a d b (ix2 p q)
      = max (a (ix2 p q) * scale (d (ix2 p (0 : Fin 1))) + b (ix2 (0 : Fin 1) q)) (Ideal.ofBits .f32 0x00000000#32) := rfl

/-! ## A row of the result only reads that row of the operands -/

/-- Row p of a projection of M rows is row r of a projection of M' rows when the two operand rows agree. -/
theorem project_transfer {M' : ℕ} (x : FVec Ideal ⟨2, ![M, K]⟩ .f32) (d : FVec Ideal ⟨2, ![M, 1]⟩ .f32)
    (w : FVec Ideal ⟨2, ![K, N]⟩ .f32) (X : FVec Ideal ⟨2, ![M', K]⟩ .f32) (D : FVec Ideal ⟨2, ![M', 1]⟩ .f32)
    (W : FVec Ideal ⟨2, ![K, N]⟩ .f32) (p : Fin M) (r : Fin M') (q : Fin N)
    (hx : ∀ k : Fin K, x (ix2 p k) = X (ix2 r k)) (hd : d (ix2 p (0 : Fin 1)) = D (ix2 r (0 : Fin 1)))
    (hw : ∀ k : Fin K, w (ix2 k q) = W (ix2 k q)) :
    project x d w (ix2 p q) = project X D W (ix2 r q) := by
  rw [project_apply, project_apply, hd]
  exact Finset.sum_congr rfl fun k _ => by rw [hx k, hw k]

/-- The same for the closing step. -/
theorem finish_transfer {M' : ℕ} (a : FVec Ideal ⟨2, ![M, N]⟩ .f32) (d : FVec Ideal ⟨2, ![M, 1]⟩ .f32)
    (b : FVec Ideal ⟨2, ![1, N]⟩ .f32) (A : FVec Ideal ⟨2, ![M', N]⟩ .f32) (D : FVec Ideal ⟨2, ![M', 1]⟩ .f32)
    (B : FVec Ideal ⟨2, ![1, N]⟩ .f32) (p : Fin M) (r : Fin M') (q : Fin N)
    (ha : a (ix2 p q) = A (ix2 r q)) (hd : d (ix2 p (0 : Fin 1)) = D (ix2 r (0 : Fin 1)))
    (hb : b (ix2 (0 : Fin 1) q) = B (ix2 (0 : Fin 1) q)) :
    finish a d b (ix2 p q) = finish A D B (ix2 r q) := by
  rw [finish_apply, finish_apply, ha, hd, hb]

theorem finishClamped_transfer {M' : ℕ} (a : FVec Ideal ⟨2, ![M, N]⟩ .f32) (d : FVec Ideal ⟨2, ![M, 1]⟩ .f32)
    (b : FVec Ideal ⟨2, ![1, N]⟩ .f32) (A : FVec Ideal ⟨2, ![M', N]⟩ .f32) (D : FVec Ideal ⟨2, ![M', 1]⟩ .f32)
    (B : FVec Ideal ⟨2, ![1, N]⟩ .f32) (p : Fin M) (r : Fin M') (q : Fin N)
    (ha : a (ix2 p q) = A (ix2 r q)) (hd : d (ix2 p (0 : Fin 1)) = D (ix2 r (0 : Fin 1)))
    (hb : b (ix2 (0 : Fin 1) q) = B (ix2 (0 : Fin 1) q)) :
    finishClamped a d b (ix2 p q) = finishClamped A D B (ix2 r q) := by
  rw [finishClamped_apply, finishClamped_apply, ha, hd, hb]

/-! ## On a block, in a kernel's spelling -/

/-- The column of counts read at row p through the body's clamp, inverse square root and spread along a row. -/
theorem block_scale_entry {C : ℕ} (hc : (⟨2, ![M, 1]⟩ : Shape).ShapeCasts ⟨2, ![M, 1]⟩)
    (hb : (⟨2, ![M, 1]⟩ : Shape).Broadcasts ⟨2, ![M, C]⟩) (d : FVec Ideal ⟨2, ![M, 1]⟩ .f32) (p : Fin M) (c : Fin C) :
    broadcastTo ⟨2, ![M, C]⟩ (rsqrt (maximumf (shapeCast ⟨2, ![M, 1]⟩ d hc)
        (broadcast ⟨2, ![M, 1]⟩ (Scalar.ofBits (F := Ideal) .f32 0x3F800000#32)))) hb (ix2 p c)
      = scale (d (ix2 p (0 : Fin 1))) := by
  rw [KeepdimsColumn.broadcastTo_a1_ab_apply]
  show Ideal.rsqrt (max (shapeCast ⟨2, ![M, 1]⟩ d hc (ix2 p (0 : Fin 1))) _) = _
  rw [shapeCast_self]
  rfl

/-- The projection on a block: rows scaled by the spread column, then the product on the matrix unit into zeros. -/
theorem block_project_entry (D : DotDims ⟨2, ![M, K]⟩ ⟨2, ![K, N]⟩ ⟨2, ![M, N]⟩) (hD : D = DotDims.plain M K N)
    (hc : (⟨2, ![M, 1]⟩ : Shape).ShapeCasts ⟨2, ![M, 1]⟩) (hb : (⟨2, ![M, 1]⟩ : Shape).Broadcasts ⟨2, ![M, K]⟩)
    (x : FVec Ideal ⟨2, ![M, K]⟩ .f32) (d : FVec Ideal ⟨2, ![M, 1]⟩ .f32) (w : FVec Ideal ⟨2, ![K, N]⟩ .f32)
    (p : Fin M) (q : Fin N) :
    matmul D none (mulf x (broadcastTo ⟨2, ![M, K]⟩ (rsqrt (maximumf (shapeCast ⟨2, ![M, 1]⟩ d hc)
        (broadcast ⟨2, ![M, 1]⟩ (Scalar.ofBits (F := Ideal) .f32 0x3F800000#32)))) hb)) w
        (constant (F := Ideal) ⟨2, ![M, N]⟩ .f32 0x00000000#32) (ix2 p q)
      = project x d w (ix2 p q) := by
  refine (MatmulNN.matmul_zero_apply D hD none _ w p q).trans ?_
  rw [project_apply]
  refine Finset.sum_congr rfl fun k _ => ?_
  rw [mulf_apply, block_scale_entry]

/-- The same when the block of features first passes through a cast to its own shape (the identity). -/
theorem block_project_entry_cast (D : DotDims ⟨2, ![M, K]⟩ ⟨2, ![K, N]⟩ ⟨2, ![M, N]⟩) (hD : D = DotDims.plain M K N)
    (hx : (⟨2, ![M, K]⟩ : Shape).ShapeCasts ⟨2, ![M, K]⟩)
    (hc : (⟨2, ![M, 1]⟩ : Shape).ShapeCasts ⟨2, ![M, 1]⟩) (hb : (⟨2, ![M, 1]⟩ : Shape).Broadcasts ⟨2, ![M, K]⟩)
    (x : FVec Ideal ⟨2, ![M, K]⟩ .f32) (d : FVec Ideal ⟨2, ![M, 1]⟩ .f32) (w : FVec Ideal ⟨2, ![K, N]⟩ .f32)
    (p : Fin M) (q : Fin N) :
    matmul D none (mulf (shapeCast ⟨2, ![M, K]⟩ x hx) (broadcastTo ⟨2, ![M, K]⟩ (rsqrt (maximumf (shapeCast ⟨2, ![M, 1]⟩ d hc)
        (broadcast ⟨2, ![M, 1]⟩ (Scalar.ofBits (F := Ideal) .f32 0x3F800000#32)))) hb)) w
        (constant (F := Ideal) ⟨2, ![M, N]⟩ .f32 0x00000000#32) (ix2 p q)
      = project x d w (ix2 p q) := by
  rw [shapeCast_self]
  exact block_project_entry D hD hc hb x d w p q

/-- The closing step on a block: the column and the bias row spread by vector broadcasts. -/
theorem block_finish_entry (ha : (⟨2, ![M, N]⟩ : Shape).ShapeCasts ⟨2, ![M, N]⟩)
    (hc : (⟨2, ![M, 1]⟩ : Shape).ShapeCasts ⟨2, ![M, 1]⟩) (hr : (⟨2, ![1, N]⟩ : Shape).ShapeCasts ⟨2, ![1, N]⟩)
    (hbd : (⟨2, ![M, 1]⟩ : Shape).Broadcasts ⟨2, ![M, N]⟩) (hbr : (⟨2, ![1, N]⟩ : Shape).Broadcasts ⟨2, ![M, N]⟩)
    (a : FVec Ideal ⟨2, ![M, N]⟩ .f32) (d : FVec Ideal ⟨2, ![M, 1]⟩ .f32) (b : FVec Ideal ⟨2, ![1, N]⟩ .f32)
    (p : Fin M) (q : Fin N) :
    addf (mulf (shapeCast ⟨2, ![M, N]⟩ a ha) (broadcastTo ⟨2, ![M, N]⟩ (rsqrt (maximumf (shapeCast ⟨2, ![M, 1]⟩ d hc)
          (broadcast ⟨2, ![M, 1]⟩ (Scalar.ofBits (F := Ideal) .f32 0x3F800000#32)))) hbd))
        (broadcastTo ⟨2, ![M, N]⟩ (shapeCast ⟨2, ![1, N]⟩ b hr) hbr) (ix2 p q)
      = finish a d b (ix2 p q) := by
  rw [addf_apply, mulf_apply, block_scale_entry, broadcastTo_1b_ab_apply, shapeCast_self, shapeCast_self, finish_apply]

/-- The clamped closing step on a block: a maximum with the zero splat. -/
theorem block_finishClamped_entry (ha : (⟨2, ![M, N]⟩ : Shape).ShapeCasts ⟨2, ![M, N]⟩)
    (hc : (⟨2, ![M, 1]⟩ : Shape).ShapeCasts ⟨2, ![M, 1]⟩) (hr : (⟨2, ![1, N]⟩ : Shape).ShapeCasts ⟨2, ![1, N]⟩)
    (hbd : (⟨2, ![M, 1]⟩ : Shape).Broadcasts ⟨2, ![M, N]⟩) (hbr : (⟨2, ![1, N]⟩ : Shape).Broadcasts ⟨2, ![M, N]⟩)
    (a : FVec Ideal ⟨2, ![M, N]⟩ .f32) (d : FVec Ideal ⟨2, ![M, 1]⟩ .f32) (b : FVec Ideal ⟨2, ![1, N]⟩ .f32)
    (p : Fin M) (q : Fin N) :
    maximumf (addf (mulf (shapeCast ⟨2, ![M, N]⟩ a ha) (broadcastTo ⟨2, ![M, N]⟩ (rsqrt (maximumf (shapeCast ⟨2, ![M, 1]⟩ d hc)
          (broadcast ⟨2, ![M, 1]⟩ (Scalar.ofBits (F := Ideal) .f32 0x3F800000#32)))) hbd))
        (broadcastTo ⟨2, ![M, N]⟩ (shapeCast ⟨2, ![1, N]⟩ b hr) hbr))
        (broadcast ⟨2, ![M, N]⟩ (Scalar.ofBits (F := Ideal) .f32 0x00000000#32)) (ix2 p q)
      = finishClamped a d b (ix2 p q) := by
  rw [maximumf_apply, block_finish_entry, broadcast_apply]
  rfl

/-! ## On the whole array, in the host's spelling -/

/-- The vector of counts, clamped and inverted on the host and spread as a column then along the rows' entries, read
    at (p, c): the scaling of count p, which is also what the count vector viewed as a column gives. -/
theorem host_scale_entry {C : ℕ} (dims0 : Fin 0 → Fin 1) (h0 : (⟨0, ![]⟩ : Shape).BroadcastsInDim ⟨1, ![M]⟩ dims0)
    (h1 : (⟨1, ![M]⟩ : Shape).BroadcastsInDim ⟨2, ![M, 1]⟩ ![0])
    (h2 : (⟨2, ![M, 1]⟩ : Shape).BroadcastsInDim ⟨2, ![M, C]⟩ ![0, 1])
    (hr : (⟨1, ![M]⟩ : Shape).ShapeCasts ⟨2, ![M, 1]⟩) (deg : FVec Ideal ⟨1, ![M]⟩ .f32) (p : Fin M) (c : Fin C) :
    broadcastInDim ⟨2, ![M, C]⟩ ![0, 1] h2 (broadcastInDim ⟨2, ![M, 1]⟩ ![0] h1
        (Host.rsqrt (maximumf deg (broadcastInDim ⟨1, ![M]⟩ dims0 h0 (constant (F := Ideal) ⟨0, ![]⟩ .f32 0x3F800000#32)))))
        (ix2 p c)
      = scale (shapeCast ⟨2, ![M, 1]⟩ deg hr (ix2 p (0 : Fin 1))) := by
  rw [HostBroadcasts.col_rows_apply, HostBroadcasts.col_apply, KeepdimsColumn.shapeCast_a_a1_apply]
  show Ideal.rsqrt (max (deg (ix1 p))
    (broadcastInDim ⟨1, ![M]⟩ dims0 h0 (constant (F := Ideal) ⟨0, ![]⟩ .f32 0x3F800000#32) (ix1 p))) = _
  rw [HostBroadcasts.scalar_apply]
  rfl

/-- The projection on the host: the rows scaled, then a dot_general. -/
theorem host_project (D : DotDims ⟨2, ![M, K]⟩ ⟨2, ![K, N]⟩ ⟨2, ![M, N]⟩) (hD : D = DotDims.plain M K N)
    (dims0 : Fin 0 → Fin 1) (h0 : (⟨0, ![]⟩ : Shape).BroadcastsInDim ⟨1, ![M]⟩ dims0)
    (h1 : (⟨1, ![M]⟩ : Shape).BroadcastsInDim ⟨2, ![M, 1]⟩ ![0])
    (h2 : (⟨2, ![M, 1]⟩ : Shape).BroadcastsInDim ⟨2, ![M, K]⟩ ![0, 1])
    (hr : (⟨1, ![M]⟩ : Shape).ShapeCasts ⟨2, ![M, 1]⟩)
    (x : FVec Ideal ⟨2, ![M, K]⟩ .f32) (deg : FVec Ideal ⟨1, ![M]⟩ .f32) (w : FVec Ideal ⟨2, ![K, N]⟩ .f32) :
    Host.dotGeneral D none (mulf x (broadcastInDim ⟨2, ![M, K]⟩ ![0, 1] h2 (broadcastInDim ⟨2, ![M, 1]⟩ ![0] h1
        (Host.rsqrt (maximumf deg (broadcastInDim ⟨1, ![M]⟩ dims0 h0 (constant (F := Ideal) ⟨0, ![]⟩ .f32 0x3F800000#32))))))) w
      = project x (shapeCast ⟨2, ![M, 1]⟩ deg hr) w := by
  funext i
  obtain ⟨p, q, rfl⟩ : ∃ (p : Fin M) (q : Fin N), i = ix2 p q := ⟨i 0, i 1, eq_ix2 i⟩
  rw [DotNN.dotGeneral_apply D hD, project_apply]
  refine Finset.sum_congr rfl fun k _ => ?_
  rw [mulf_apply, host_scale_entry dims0 h0 h1 h2 hr]

/-- The closing step on the host: the rows scaled, the bias viewed as one row and repeated down the rows. -/
theorem host_finish (dims0 : Fin 0 → Fin 1) (h0 : (⟨0, ![]⟩ : Shape).BroadcastsInDim ⟨1, ![M]⟩ dims0)
    (h1 : (⟨1, ![M]⟩ : Shape).BroadcastsInDim ⟨2, ![M, 1]⟩ ![0])
    (h2 : (⟨2, ![M, 1]⟩ : Shape).BroadcastsInDim ⟨2, ![M, N]⟩ ![0, 1])
    (hr : (⟨1, ![M]⟩ : Shape).ShapeCasts ⟨2, ![M, 1]⟩)
    (hrow : (⟨2, ![1, N]⟩ : Shape).BroadcastsInDim ⟨2, ![M, N]⟩ ![0, 1])
    (hvec : (⟨1, ![N]⟩ : Shape).BroadcastsInDim ⟨2, ![1, N]⟩ ![1])
    (hbr : (⟨1, ![N]⟩ : Shape).ShapeCasts ⟨2, ![1, N]⟩)
    (a : FVec Ideal ⟨2, ![M, N]⟩ .f32) (deg : FVec Ideal ⟨1, ![M]⟩ .f32) (b : FVec Ideal ⟨1, ![N]⟩ .f32) :
    addf (mulf a (broadcastInDim ⟨2, ![M, N]⟩ ![0, 1] h2 (broadcastInDim ⟨2, ![M, 1]⟩ ![0] h1
        (Host.rsqrt (maximumf deg (broadcastInDim ⟨1, ![M]⟩ dims0 h0 (constant (F := Ideal) ⟨0, ![]⟩ .f32 0x3F800000#32)))))))
        (broadcastInDim ⟨2, ![M, N]⟩ ![0, 1] hrow (broadcastInDim ⟨2, ![1, N]⟩ ![1] hvec b))
      = finish a (shapeCast ⟨2, ![M, 1]⟩ deg hr) (shapeCast ⟨2, ![1, N]⟩ b hbr) := by
  funext i
  obtain ⟨p, q, rfl⟩ : ∃ (p : Fin M) (q : Fin N), i = ix2 p q := ⟨i 0, i 1, eq_ix2 i⟩
  rw [addf_apply, mulf_apply, host_scale_entry dims0 h0 h1 h2 hr, BroadcastRows.row_apply, BroadcastRows.unit_apply,
    finish_apply, shapeCast_a_1a_apply]

/-- The clamped closing step on the host: a maximum with zero spread from a scalar. -/
theorem host_finishClamped (dims0 : Fin 0 → Fin 1) (h0 : (⟨0, ![]⟩ : Shape).BroadcastsInDim ⟨1, ![M]⟩ dims0)
    (h1 : (⟨1, ![M]⟩ : Shape).BroadcastsInDim ⟨2, ![M, 1]⟩ ![0])
    (h2 : (⟨2, ![M, 1]⟩ : Shape).BroadcastsInDim ⟨2, ![M, N]⟩ ![0, 1])
    (hr : (⟨1, ![M]⟩ : Shape).ShapeCasts ⟨2, ![M, 1]⟩)
    (hrow : (⟨2, ![1, N]⟩ : Shape).BroadcastsInDim ⟨2, ![M, N]⟩ ![0, 1])
    (hvec : (⟨1, ![N]⟩ : Shape).BroadcastsInDim ⟨2, ![1, N]⟩ ![1])
    (hbr : (⟨1, ![N]⟩ : Shape).ShapeCasts ⟨2, ![1, N]⟩)
    (dimsz : Fin 0 → Fin 2) (hz : (⟨0, ![]⟩ : Shape).BroadcastsInDim ⟨2, ![M, N]⟩ dimsz)
    (a : FVec Ideal ⟨2, ![M, N]⟩ .f32) (deg : FVec Ideal ⟨1, ![M]⟩ .f32) (b : FVec Ideal ⟨1, ![N]⟩ .f32) :
    maximumf (addf (mulf a (broadcastInDim ⟨2, ![M, N]⟩ ![0, 1] h2 (broadcastInDim ⟨2, ![M, 1]⟩ ![0] h1
        (Host.rsqrt (maximumf deg (broadcastInDim ⟨1, ![M]⟩ dims0 h0 (constant (F := Ideal) ⟨0, ![]⟩ .f32 0x3F800000#32)))))))
        (broadcastInDim ⟨2, ![M, N]⟩ ![0, 1] hrow (broadcastInDim ⟨2, ![1, N]⟩ ![1] hvec b)))
        (broadcastInDim ⟨2, ![M, N]⟩ dimsz hz (constant (F := Ideal) ⟨0, ![]⟩ .f32 0x00000000#32))
      = finishClamped a (shapeCast ⟨2, ![M, 1]⟩ deg hr) (shapeCast ⟨2, ![1, N]⟩ b hbr) := by
  funext i
  rw [maximumf_apply, host_finish dims0 h0 h1 h2 hr hrow hvec hbr, HostBroadcasts.scalar_apply, constant_apply]
  rfl

end Cert.GraphSteps

end
-- ==== Proof.Region0.lean ====
/-
  Region 0 of the program: a projection, row block by row block.

  The region's grid has ten points. Point t is handed rows 10000·t … 10000·t + 9999 of the feature array
  [100000, 128] and of the column of edge counts [100000, 1], and the whole weight [128, 64]; it writes back those
  rows of the result [100000, 64]. Its body scales each feature row by 1 / sqrt (max (count, 1)) and multiplies by
  the weight on the matrix unit. A row of a projection only reads that row of the operands, so what point t writes
  is rows 10000·t … of the projection of the whole arrays; the ten blocks tile the result, which therefore ends as
  that projection. Everything is stated at arbitrary contents V of the buffers when the region is entered.
-/
import proofs.«159741_j49761491091779_1_alg».proof.Proof.Gen.KernelIdeal.Frame
import proofs.«159741_j49761491091779_1_alg».proof.Proof.LibGraphSteps

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole arrays' projection, at this region's extents. -/
abbrev proj0 (X : S100000x128.Idx → EReal) (D : S100000x1.Idx → EReal) (W : S128x64.Idx → EReal) : S100000x64.Idx → EReal :=
  GraphSteps.project (M := 100000) (K := 128) (N := 64) X D W

theorem offsets0 : (![0, 0] : Fin 2 → Nat) = fun _ => 0 := funext fun a => by fin_cases a <;> rfl

/-- The body's stored value at an entry of the block is the projection of the three loaded blocks there. -/
theorem block0_entry (x1 : Vec Ideal S10000x1 .f32) (x0 : Vec Ideal S10000x128 .f32) (x2 : Vec Ideal S128x64 .f32)
    (p : Fin 10000) (q : Fin 64) :
    k0_pay1 x1 x0 x2 (ix2 p q) = GraphSteps.project (M := 10000) (K := 128) (N := 64) x0 x1 x2 (ix2 p q) := by
  unfold k0_pay1
  exact GraphSteps.block_project_entry dot_S10000x128_S128x64_S10000x64_1_0_0_1_n_n rfl _ _ x0 x1 x2 p q

/-- The stored value at block entry j is the whole arrays' projection at i as soon as i's column is j's and the
    operand rows the two read agree. -/
theorem block0_rows (x1 : Vec Ideal S10000x1 .f32) (x0 : Vec Ideal S10000x128 .f32) (x2 : Vec Ideal S128x64 .f32)
    (X : S100000x128.Idx → EReal) (D : S100000x1.Idx → EReal) (W : S128x64.Idx → EReal)
    (j : S10000x64.Idx) (i : S100000x64.Idx) (hq : j 1 = i 1)
    (hx : ∀ k : Fin 128, x0 (ix2 (j 0) k) = X (ix2 (i 0) k))
    (hd : x1 (ix2 (j 0) (0 : Fin 1)) = D (ix2 (i 0) (0 : Fin 1)))
    (hw : ∀ k : Fin 128, x2 (ix2 k (j 1)) = W (ix2 k (j 1))) :
    k0_pay1 x1 x0 x2 j = proj0 X D W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hqq : q = q' := hq
  subst hqq
  rw [block0_entry]
  exact GraphSteps.project_transfer x0 x1 x2 X D W p r q hx hd hw

/-- The printed index maps over the grid: the row-tiled windows sit at block row t, column block 0; the weight at
    block (0, 0). -/
theorem index_facts0 : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point t writes back is block t of the whole arrays' projection. -/
theorem flushed0 (c : Dev nD) (t : Fin cfg0.N) :
    (dat0 V c).flushed 3 t
      = ((cfg0.win 3).blk t).view.read (Elt Ideal) (proj0 (V c main_arg0) (V c main_v7) (V c main_arg3)) := by
  show (cfg0.win 3).cut (grid0.coords t) ((dat0 V c).after 3 t) = _
  rw [after0_3]
  unfold out0_3
  rw [View.canon_unit_zero offsets0]
  simp only [View.ld_unit_zero (S := S10000x1) offsets0, View.ld_unit_zero (S := S10000x128) offsets0,
    View.ld_unit_zero (S := S128x64) offsets0]
  obtain ⟨e0, e1, e2, e3, e4, e5, e6, e7⟩ := index_facts0 t
  funext j
  refine block0_rows (iblk0 V c 1 t) (iblk0 V c 0 t) (iblk0 V c 2 t) (V c main_arg0) (V c main_v7) (V c main_arg3) j
    (((cfg0.win 3).blk t).view.emb j) ?_ (fun k => ?_) ?_ (fun k => ?_)
  · apply Fin.ext
    show (j 1).val = win0_3.index t (1 : Fin 2) * 64 + 1 * (j 1).val
    omega
  · show V c main_arg0 (((cfg0.win 0).blk t).view.emb (ix2 (j 0) k)) = _
    refine congrArg _ ?_
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  · show V c main_v7 (((cfg0.win 1).blk t).view.emb (ix2 (j 0) (0 : Fin 1))) = _
    refine congrArg _ ?_
    funext a; apply Fin.ext
    match a with
    | ⟨0, _⟩ => show win0_1.index t (0 : Fin 2) * 10000 + 1 * (j 0).val = win0_3.index t (0 : Fin 2) * 10000 + 1 * (j 0).val; omega
    | ⟨1, _⟩ => show win0_1.index t (1 : Fin 2) * 1 + 1 * 0 = 0; omega
  · show V c main_arg3 (((cfg0.win 2).blk t).view.emb (ix2 k (j 1))) = _
    refine congrArg _ ?_
    funext a; apply Fin.ext
    match a with
    | ⟨0, _⟩ => show win0_2.index t (0 : Fin 2) * 128 + 1 * k.val = k.val; omega
    | ⟨1, _⟩ => show win0_2.index t (1 : Fin 2) * 64 + 1 * (j 1).val = (j 1).val; omega

/-- An index of the result is in point t's block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v8).slice (win0_3.rect t)).set ↔ _
  rw [View.set_slice_whole, Rect.mem_set_unit]
  exact Iff.rfl

/-- Row r of the result is in the block of point r / 10000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have hlt : (i 0).val / 10000 < cfg0.N := by rw [hN]; omega
  refine ⟨⟨(i 0).val / 10000, hlt⟩, flush0_3 _, ?_⟩
  rw [mem_block0]
  obtain ⟨e0, e1, e2, e3, e4, e5, e6, e7⟩ := index_facts0 ⟨(i 0).val / 10000, hlt⟩
  have e7' : win0_3.index ⟨(i 0).val / 10000, hlt⟩ (0 : Fin 2) = (i 0).val / 10000 := e7
  intro a
  match a with
  | ⟨0, _⟩ =>
    show win0_3.index _ (0 : Fin 2) * 10000 ≤ (i 0).val ∧ (i 0).val < win0_3.index _ (0 : Fin 2) * 10000 + 10000
    omega
  | ⟨1, _⟩ =>
    show win0_3.index _ (1 : Fin 2) * 64 ≤ (i 1).val ∧ (i 1).val < win0_3.index _ (1 : Fin 2) * 64 + 64
    omega

/-- The result array after the region: the projection of the operand arrays as the region found them. -/
theorem region0_value (c : Dev nD) :
    (dat0 V c).arrAt 3 cfg0.N = proj0 (V c main_arg0) (V c main_v7) (V c main_arg3) :=
  (dat0 V c).arrAt_eq_of_cover 3 _ (fun t _ => flushed0 V c t) (cover0)

end Cert.KernelIdeal.Layers

end
-- ==== Proof.Region1.lean ====
/-
  Region 1 of the program: the closing step of a layer, row block by row block.

  The region's grid has ten points. Point t is handed rows 10000·t … 10000·t + 9999 of the aggregated array
  [100000, 64] and of the column of edge counts [100000, 1], and the whole bias row [1, 64]; it writes back those
  rows of the result [100000, 64]. Its body scales each row by 1 / sqrt (max (count, 1)), adds the bias and clamps
  below at zero. A row of the result only reads that row of the operands, so what point t writes is rows
  10000·t … of the closing step of the whole arrays; the ten blocks tile the result, which therefore ends as that.
  Everything is stated at arbitrary contents V of the buffers when the region is entered.
-/
import proofs.«159741_j49761491091779_1_alg».proof.Proof.Gen.KernelIdeal.Frame
import proofs.«159741_j49761491091779_1_alg».proof.Proof.LibGraphSteps

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole arrays' closing step, at this region's extents. -/
abbrev fin1 (A : S100000x64.Idx → EReal) (D : S100000x1.Idx → EReal) (B : S1x64.Idx → EReal) : S100000x64.Idx → EReal :=
  GraphSteps.finishClamped (M := 100000) (N := 64) A D B

theorem offsets1 : (![0, 0] : Fin 2 → Nat) = fun _ => 0 := funext fun a => by fin_cases a <;> rfl

/-- The body's stored value at an entry of the block is the closing step of the three loaded blocks there. -/
theorem block1_entry (x1 : Vec Ideal S10000x1 .f32) (x0 : Vec Ideal S10000x64 .f32) (x2 : Vec Ideal S1x64 .f32)
    (p : Fin 10000) (q : Fin 64) :
    k1_pay1 x1 x0 x2 (ix2 p q) = GraphSteps.finishClamped (M := 10000) (N := 64) x0 x1 x2 (ix2 p q) := by
  unfold k1_pay1
  exact GraphSteps.block_finishClamped_entry _ _ _ _ _ x0 x1 x2 p q

/-- The stored value at block entry j is the whole arrays' closing step at i as soon as i's column is j's and the
    operand entries the two read agree. -/
theorem block1_rows (x1 : Vec Ideal S10000x1 .f32) (x0 : Vec Ideal S10000x64 .f32) (x2 : Vec Ideal S1x64 .f32)
    (A : S100000x64.Idx → EReal) (D : S100000x1.Idx → EReal) (B : S1x64.Idx → EReal)
    (j : S10000x64.Idx) (i : S100000x64.Idx) (hq : j 1 = i 1)
    (ha : x0 j = A i)
    (hd : x1 (ix2 (j 0) (0 : Fin 1)) = D (ix2 (i 0) (0 : Fin 1)))
    (hb : x2 (ix2 (0 : Fin 1) (j 1)) = B (ix2 (0 : Fin 1) (j 1))) :
    k1_pay1 x1 x0 x2 j = fin1 A D B i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hqq : q = q' := hq
  subst hqq
  rw [block1_entry]
  exact GraphSteps.finishClamped_transfer x0 x1 x2 A D B p r q ha hd hb

/-- The printed index maps over the grid: the row-tiled windows sit at block row t, column block 0; the bias row at
    block (0, 0). -/
theorem index_facts1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What point t writes back is block t of the whole arrays' closing step. -/
theorem flushed1 (c : Dev nD) (t : Fin cfg1.N) :
    (dat1 V c).flushed 3 t
      = ((cfg1.win 3).blk t).view.read (Elt Ideal) (fin1 (V c main_v18) (V c main_v19) (V c main_v20)) := by
  show (cfg1.win 3).cut (grid1.coords t) ((dat1 V c).after 3 t) = _
  rw [after1_3]
  unfold out1_3
  rw [View.canon_unit_zero offsets1]
  simp only [View.ld_unit_zero (S := S10000x1) offsets1, View.ld_unit_zero (S := S10000x64) offsets1,
    View.ld_unit_zero (S := S1x64) offsets1]
  obtain ⟨e0, e1, e2, e3, e4, e5, e6, e7⟩ := index_facts1 t
  funext j
  refine block1_rows (iblk1 V c 1 t) (iblk1 V c 0 t) (iblk1 V c 2 t) (V c main_v18) (V c main_v19) (V c main_v20) j
    (((cfg1.win 3).blk t).view.emb j) ?_ ?_ ?_ ?_
  · apply Fin.ext
    show (j 1).val = win1_3.index t (1 : Fin 2) * 64 + 1 * (j 1).val
    omega
  · show V c main_v18 (((cfg1.win 0).blk t).view.emb j) = _
    refine congrArg _ ?_
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · show V c main_v19 (((cfg1.win 1).blk t).view.emb (ix2 (j 0) (0 : Fin 1))) = _
    refine congrArg _ ?_
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  · show V c main_v20 (((cfg1.win 2).blk t).view.emb (ix2 (0 : Fin 1) (j 1))) = _
    refine congrArg _ ?_
    funext a; apply Fin.ext
    match a with
    | ⟨0, _⟩ => show win1_2.index t (0 : Fin 2) * 1 + 1 * 0 = 0; omega
    | ⟨1, _⟩ => show win1_2.index t (1 : Fin 2) * 64 + 1 * (j 1).val = (j 1).val; omega

/-- An index of the result is in point t's block iff each coordinate is in the block's range on its axis. -/
theorem mem_block1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v21).slice (win1_3.rect t)).set ↔ _
  rw [View.set_slice_whole, Rect.mem_set_unit]
  exact Iff.rfl

/-- Row r of the result is in the block of point r / 10000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have hlt : (i 0).val / 10000 < cfg1.N := by rw [hN]; omega
  refine ⟨⟨(i 0).val / 10000, hlt⟩, flush1_3 _, ?_⟩
  rw [mem_block1]
  obtain ⟨e0, e1, e2, e3, e4, e5, e6, e7⟩ := index_facts1 ⟨(i 0).val / 10000, hlt⟩
  have e7' : win1_3.index ⟨(i 0).val / 10000, hlt⟩ (0 : Fin 2) = (i 0).val / 10000 := e7
  intro a
  match a with
  | ⟨0, _⟩ =>
    show win1_3.index _ (0 : Fin 2) * 10000 ≤ (i 0).val ∧ (i 0).val < win1_3.index _ (0 : Fin 2) * 10000 + 10000
    omega
  | ⟨1, _⟩ =>
    show win1_3.index _ (1 : Fin 2) * 64 ≤ (i 1).val ∧ (i 1).val < win1_3.index _ (1 : Fin 2) * 64 + 64
    omega

/-- The result array after the region: the closing step of the operand arrays as the region found them. -/
theorem region1_value (c : Dev nD) :
    (dat1 V c).arrAt 3 cfg1.N = fin1 (V c main_v18) (V c main_v19) (V c main_v20) :=
  (dat1 V c).arrAt_eq_of_cover 3 _ (fun t _ => flushed1 V c t) (cover1)

end Cert.KernelIdeal.Layers

end
-- ==== Proof.Region2.lean ====
/-
  Region 2 of the program: a projection, row block by row block.

  The region's grid has ten points. Point t is handed rows 10000·t … 10000·t + 9999 of the feature array
  [100000, 64] and of the column of edge counts [100000, 1], and the whole weight [64, 16]; it writes back those
  rows of the result [100000, 16]. Its body scales each feature row by 1 / sqrt (max (count, 1)) and multiplies by
  the weight on the matrix unit. A row of a projection only reads that row of the operands, so what point t writes
  is rows 10000·t … of the projection of the whole arrays; the ten blocks tile the result, which therefore ends as
  that projection. Everything is stated at arbitrary contents V of the buffers when the region is entered.
-/
import proofs.«159741_j49761491091779_1_alg».proof.Proof.Gen.KernelIdeal.Frame
import proofs.«159741_j49761491091779_1_alg».proof.Proof.LibGraphSteps

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole arrays' projection, at this region's extents. -/
abbrev proj2 (X : S100000x64.Idx → EReal) (D : S100000x1.Idx → EReal) (W : S64x16.Idx → EReal) : S100000x16.Idx → EReal :=
  GraphSteps.project (M := 100000) (K := 64) (N := 16) X D W

theorem offsets2 : (![0, 0] : Fin 2 → Nat) = fun _ => 0 := funext fun a => by fin_cases a <;> rfl

/-- The body's stored value at an entry of the block is the projection of the three loaded blocks there. -/
theorem block2_entry (x1 : Vec Ideal S10000x1 .f32) (x0 : Vec Ideal S10000x64 .f32) (x2 : Vec Ideal S64x16 .f32)
    (p : Fin 10000) (q : Fin 16) :
    k2_pay1 x1 x0 x2 (ix2 p q) = GraphSteps.project (M := 10000) (K := 64) (N := 16) x0 x1 x2 (ix2 p q) := by
  unfold k2_pay1
  exact GraphSteps.block_project_entry_cast dot_S10000x64_S64x16_S10000x16_1_0_0_1_n_n rfl _ _ _ x0 x1 x2 p q

/-- The stored value at block entry j is the whole arrays' projection at i as soon as i's column is j's and the
    operand rows the two read agree. -/
theorem block2_rows (x1 : Vec Ideal S10000x1 .f32) (x0 : Vec Ideal S10000x64 .f32) (x2 : Vec Ideal S64x16 .f32)
    (X : S100000x64.Idx → EReal) (D : S100000x1.Idx → EReal) (W : S64x16.Idx → EReal)
    (j : S10000x16.Idx) (i : S100000x16.Idx) (hq : j 1 = i 1)
    (hx : ∀ k : Fin 64, x0 (ix2 (j 0) k) = X (ix2 (i 0) k))
    (hd : x1 (ix2 (j 0) (0 : Fin 1)) = D (ix2 (i 0) (0 : Fin 1)))
    (hw : ∀ k : Fin 64, x2 (ix2 k (j 1)) = W (ix2 k (j 1))) :
    k2_pay1 x1 x0 x2 j = proj2 X D W i := by
  obtain ⟨p, q, rfl⟩ : ∃ (p : Fin 10000) (q : Fin 16), j = ix2 p q := ⟨j 0, j 1, eq_ix2 j⟩
  obtain ⟨r, q', rfl⟩ : ∃ (r : Fin 100000) (q' : Fin 16), i = ix2 r q' := ⟨i 0, i 1, eq_ix2 i⟩
  have hqq : q = q' := hq
  subst hqq
  rw [block2_entry]
  exact GraphSteps.project_transfer x0 x1 x2 X D W p r q hx hd hw

/-- The printed index maps over the grid: the row-tiled windows sit at block row t, column block 0; the weight at
    block (0, 0). -/
theorem index_facts2 : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- What point t writes back is block t of the whole arrays' projection. -/
theorem flushed2 (c : Dev nD) (t : Fin cfg2.N) :
    (dat2 V c).flushed 3 t
      = ((cfg2.win 3).blk t).view.read (Elt Ideal) (proj2 (V c main_v21) (V c main_v22) (V c main_arg5)) := by
  show (cfg2.win 3).cut (grid2.coords t) ((dat2 V c).after 3 t) = _
  rw [after2_3]
  unfold out2_3
  rw [View.canon_unit_zero offsets2]
  simp only [View.ld_unit_zero (S := S10000x1) offsets2, View.ld_unit_zero (S := S10000x64) offsets2,
    View.ld_unit_zero (S := S64x16) offsets2]
  obtain ⟨e0, e1, e2, e3, e4, e5, e6, e7⟩ := index_facts2 t
  funext j
  refine block2_rows (iblk2 V c 1 t) (iblk2 V c 0 t) (iblk2 V c 2 t) (V c main_v21) (V c main_v22) (V c main_arg5) j
    (((cfg2.win 3).blk t).view.emb j) ?_ (fun k => ?_) ?_ (fun k => ?_)
  · apply Fin.ext
    show (j 1).val = win2_3.index t (1 : Fin 2) * 16 + 1 * (j 1).val
    omega
  · show V c main_v21 (((cfg2.win 0).blk t).view.emb (ix2 (j 0) k)) = _
    refine congrArg _ ?_
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  · show V c main_v22 (((cfg2.win 1).blk t).view.emb (ix2 (j 0) (0 : Fin 1))) = _
    refine congrArg _ ?_
    funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  · show V c main_arg5 (((cfg2.win 2).blk t).view.emb (ix2 k (j 1))) = _
    refine congrArg _ ?_
    funext a; apply Fin.ext
    match a with
    | ⟨0, _⟩ => show win2_2.index t (0 : Fin 2) * 64 + 1 * k.val = k.val; omega
    | ⟨1, _⟩ => show win2_2.index t (1 : Fin 2) * 16 + 1 * (j 1).val = (j 1).val; omega

/-- An index of the result is in point t's block iff each coordinate is in the block's range on its axis. -/
theorem mem_block2 (t : Fin cfg2.N) (i : S100000x16.Idx) :
    i ∈ ((cfg2.win 3).blk t).view.set ↔ ∀ a : Fin 2, win2_3.index t a * S10000x16.size a ≤ (i a).val
      ∧ (i a).val < win2_3.index t a * S10000x16.size a + S10000x16.size a := by
  show i ∈ ((View.whole main_v23).slice (win2_3.rect t)).set ↔ _
  rw [View.set_slice_whole, Rect.mem_set_unit]
  exact Iff.rfl

/-- Row r of the result is in the block of point r / 10000. -/
theorem cover2 (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 10 := N_2
  have hlt : (i 0).val / 10000 < cfg2.N := by rw [hN]; omega
  refine ⟨⟨(i 0).val / 10000, hlt⟩, flush2_3 _, ?_⟩
  rw [mem_block2]
  obtain ⟨e0, e1, e2, e3, e4, e5, e6, e7⟩ := index_facts2 ⟨(i 0).val / 10000, hlt⟩
  have e7' : win2_3.index ⟨(i 0).val / 10000, hlt⟩ (0 : Fin 2) = (i 0).val / 10000 := e7
  intro a
  match a with
  | ⟨0, _⟩ =>
    show win2_3.index _ (0 : Fin 2) * 10000 ≤ (i 0).val ∧ (i 0).val < win2_3.index _ (0 : Fin 2) * 10000 + 10000
    omega
  | ⟨1, _⟩ =>
    show win2_3.index _ (1 : Fin 2) * 16 ≤ (i 1).val ∧ (i 1).val < win2_3.index _ (1 : Fin 2) * 16 + 16
    omega

/-- The result array after the region: the projection of the operand arrays as the region found them. -/
theorem region2_value (c : Dev nD) :
    (dat2 V c).arrAt 3 cfg2.N = proj2 (V c main_v21) (V c main_v22) (V c main_arg5) :=
  (dat2 V c).arrAt_eq_of_cover 3 _ (fun t _ => flushed2 V c t) (cover2)

end Cert.KernelIdeal.Layers

end
-- ==== Proof.Region3.lean ====
/-
  Region 3 of the program: the closing step of a layer, row block by row block.

  The region's grid has ten points. Point t is handed rows 10000·t … 10000·t + 9999 of the aggregated array
  [100000, 16] and of the column of edge counts [100000, 1], and the whole bias row [1, 16]; it writes back those
  rows of the result [100000, 16]. Its body scales each row by 1 / sqrt (max (count, 1)) and adds the bias. A row of the result only reads that row of the operands, so what point t writes is rows
  10000·t … of the closing step of the whole arrays; the ten blocks tile the result, which therefore ends as that.
  Everything is stated at arbitrary contents V of the buffers when the region is entered.
-/
import proofs.«159741_j49761491091779_1_alg».proof.Proof.Gen.KernelIdeal.Frame
import proofs.«159741_j49761491091779_1_alg».proof.Proof.LibGraphSteps

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole arrays' closing step, at this region's extents. -/
abbrev fin3 (A : S100000x16.Idx → EReal) (D : S100000x1.Idx → EReal) (B : S1x16.Idx → EReal) : S100000x16.Idx → EReal :=
  GraphSteps.finish (M := 100000) (N := 16) A D B

theorem offsets3 : (![0, 0] : Fin 2 → Nat) = fun _ => 0 := funext fun a => by fin_cases a <;> rfl

/-- The body's stored value at an entry of the block is the closing step of the three loaded blocks there. -/
theorem block3_entry (x1 : Vec Ideal S10000x1 .f32) (x0 : Vec Ideal S10000x16 .f32) (x2 : Vec Ideal S1x16 .f32)
    (p : Fin 10000) (q : Fin 16) :
    k3_pay1 x1 x0 x2 (ix2 p q) = GraphSteps.finish (M := 10000) (N := 16) x0 x1 x2 (ix2 p q) := by
  unfold k3_pay1
  exact GraphSteps.block_finish_entry _ _ _ _ _ x0 x1 x2 p q

/-- The stored value at block entry j is the whole arrays' closing step at i as soon as i's column is j's and the
    operand entries the two read agree. -/
theorem block3_rows (x1 : Vec Ideal S10000x1 .f32) (x0 : Vec Ideal S10000x16 .f32) (x2 : Vec Ideal S1x16 .f32)
    (A : S100000x16.Idx → EReal) (D : S100000x1.Idx → EReal) (B : S1x16.Idx → EReal)
    (j : S10000x16.Idx) (i : S100000x16.Idx) (hq : j 1 = i 1)
    (ha : x0 j = A i)
    (hd : x1 (ix2 (j 0) (0 : Fin 1)) = D (ix2 (i 0) (0 : Fin 1)))
    (hb : x2 (ix2 (0 : Fin 1) (j 1)) = B (ix2 (0 : Fin 1) (j 1))) :
    k3_pay1 x1 x0 x2 j = fin3 A D B i := by
  obtain ⟨p, q, rfl⟩ : ∃ (p : Fin 10000) (q : Fin 16), j = ix2 p q := ⟨j 0, j 1, eq_ix2 j⟩
  obtain ⟨r, q', rfl⟩ : ∃ (r : Fin 100000) (q' : Fin 16), i = ix2 r q' := ⟨i 0, i 1, eq_ix2 i⟩
  have hqq : q = q' := hq
  subst hqq
  rw [block3_entry]
  exact GraphSteps.finish_transfer x0 x1 x2 A D B p r q ha hd hb

/-- The printed index maps over the grid: the row-tiled windows sit at block row t, column block 0; the bias row at
    block (0, 0). -/
theorem index_facts3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

/-- What point t writes back is block t of the whole arrays' closing step. -/
theorem flushed3 (c : Dev nD) (t : Fin cfg3.N) :
    (dat3 V c).flushed 3 t
      = ((cfg3.win 3).blk t).view.read (Elt Ideal) (fin3 (V c main_v33) (V c main_v34) (V c main_v35)) := by
  show (cfg3.win 3).cut (grid3.coords t) ((dat3 V c).after 3 t) = _
  rw [after3_3]
  unfold out3_3
  rw [View.canon_unit_zero offsets3]
  simp only [View.ld_unit_zero (S := S10000x1) offsets3, View.ld_unit_zero (S := S10000x16) offsets3,
    View.ld_unit_zero (S := S1x16) offsets3]
  obtain ⟨e0, e1, e2, e3, e4, e5, e6, e7⟩ := index_facts3 t
  funext j
  refine block3_rows (iblk3 V c 1 t) (iblk3 V c 0 t) (iblk3 V c 2 t) (V c main_v33) (V c main_v34) (V c main_v35) j
    (((cfg3.win 3).blk t).view.emb j) ?_ ?_ ?_ ?_
  · apply Fin.ext
    show (j 1).val = win3_3.index t (1 : Fin 2) * 16 + 1 * (j 1).val
    omega
  · show V c main_v33 (((cfg3.win 0).blk t).view.emb j) = _
    refine congrArg _ ?_
    funext a; apply Fin.ext
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 16 + 1 * (j 1).val = win3_3.index t (1 : Fin 2) * 16 + 1 * (j 1).val; omega
  · show V c main_v34 (((cfg3.win 1).blk t).view.emb (ix2 (j 0) (0 : Fin 1))) = _
    refine congrArg _ ?_
    funext a; apply Fin.ext
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 1 + 1 * 0 = 0; omega
  · show V c main_v35 (((cfg3.win 2).blk t).view.emb (ix2 (0 : Fin 1) (j 1))) = _
    refine congrArg _ ?_
    funext a; apply Fin.ext
    match a with
    | ⟨0, _⟩ => show win3_2.index t (0 : Fin 2) * 1 + 1 * 0 = 0; omega
    | ⟨1, _⟩ => show win3_2.index t (1 : Fin 2) * 16 + 1 * (j 1).val = (j 1).val; omega

/-- An index of the result is in point t's block iff each coordinate is in the block's range on its axis. -/
theorem mem_block3 (t : Fin cfg3.N) (i : S100000x16.Idx) :
    i ∈ ((cfg3.win 3).blk t).view.set ↔ ∀ a : Fin 2, win3_3.index t a * S10000x16.size a ≤ (i a).val
      ∧ (i a).val < win3_3.index t a * S10000x16.size a + S10000x16.size a := by
  show i ∈ ((View.whole main_v36).slice (win3_3.rect t)).set ↔ _
  rw [View.set_slice_whole, Rect.mem_set_unit]
  exact Iff.rfl

/-- Row r of the result is in the block of point r / 10000. -/
theorem cover3 (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  have hN : cfg3.N = 10 := N_3
  have hlt : (i 0).val / 10000 < cfg3.N := by rw [hN]; omega
  refine ⟨⟨(i 0).val / 10000, hlt⟩, flush3_3 _, ?_⟩
  rw [mem_block3]
  obtain ⟨e0, e1, e2, e3, e4, e5, e6, e7⟩ := index_facts3 ⟨(i 0).val / 10000, hlt⟩
  have e7' : win3_3.index ⟨(i 0).val / 10000, hlt⟩ (0 : Fin 2) = (i 0).val / 10000 := e7
  intro a
  match a with
  | ⟨0, _⟩ =>
    show win3_3.index _ (0 : Fin 2) * 10000 ≤ (i 0).val ∧ (i 0).val < win3_3.index _ (0 : Fin 2) * 10000 + 10000
    omega
  | ⟨1, _⟩ =>
    show win3_3.index _ (1 : Fin 2) * 16 ≤ (i 1).val ∧ (i 1).val < win3_3.index _ (1 : Fin 2) * 16 + 16
    omega

/-- The result array after the region: the closing step of the operand arrays as the region found them. -/
theorem region3_value (c : Dev nD) :
    (dat3 V c).arrAt 3 cfg3.N = fin3 (V c main_v33) (V c main_v34) (V c main_v35) :=
  (dat3 V c).arrAt_eq_of_cover 3 _ (fun t _ => flushed3 V c t) (cover3)

end Cert.KernelIdeal.Layers

end
-- ==== Proof.LayerTerms.lean ====
/-
  The whole network as one function of its seven argument arrays.

  Two graph-convolution layers over 100000 nodes and 1600000 edges. An edge e leaves node src e and arrives at node
  dst e. The count of edges leaving a node and the count arriving at it are scatter-adds of ones into zeros
  (edgeCount); a count enters a layer as a column [100000, 1] (countColumn). One layer is

      project by the leaving count and the weight,
      move every row along the edges (hop: gather row src e for every edge e — a negative index wraps by 100000 —,
        then scatter-add the gathered rows into zeros at dst e),
      finish by the arriving count and the bias;

  the first layer's result is clamped at zero before it enters the second. Both programs compute this: the host
  operations for the counts and the hops are literally the same lines in both, and the dense steps (project,
  finish) are the specification's functions of module LibGraphSteps.
-/
import proofs.«159741_j49761491091779_1_alg».proof.KernelIdeal
import proofs.«159741_j49761491091779_1_alg».proof.Proof.Gen.KernelIdeal
import proofs.«159741_j49761491091779_1_alg».proof.Proof.LibGraphSteps

noncomputable section

namespace Cert.KernelIdeal.Layers

open Cert.KernelIdeal Cert.KernelIdeal.Facts₀ Cert.KernelIdeal.Facts
open Idealize.ShloMosaic

/-- How many edges name each node in the index vector: ones scattered and added into zeros. -/
def edgeCount (idx : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- A vector of counts viewed as a column. -/
def countColumn (d : FVec Ideal S100000 .f32) : FVec Ideal S100000x1 .f32 :=
  shapeCast S100000x1 d shapeCasts_S100000_S100000x1

/-- The source indices as the gather takes them: a negative index wrapped by the node count, as a column. -/
def wrappedSources (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Rows of width 64 moved along the edges: gathered at the sources, added up at the destinations. -/
def hop64 (src dst : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (wrappedSources src))

/-- Rows of width 16 moved along the edges. -/
def hop16 (src dst : IVec S1600000 32) (h : FVec Ideal S100000x16 .f32) : FVec Ideal S100000x16 .f32 :=
  Host.scatterAdd scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (Host.gather gather_S100000x16_S1600000x1_S1600000x16_1_0_n_n_0_1_116 h (wrappedSources src))

/-- The first layer, clamped: [100000, 128] features to [100000, 64]. -/
def layer1 (emb : FVec Ideal S100000x128 .f32) (src dst : IVec S1600000 32) (w1 : FVec Ideal S128x64 .f32)
    (b1 : FVec Ideal S64 .f32) : FVec Ideal S100000x64 .f32 :=
  GraphSteps.finishClamped (M := 100000) (N := 64)
    (hop64 src dst (GraphSteps.project (M := 100000) (K := 128) (N := 64) emb (countColumn (edgeCount src)) w1))
    (countColumn (edgeCount dst)) (shapeCast S1x64 b1 shapeCasts_S64_S1x64)

/-- The second layer, not clamped: [100000, 64] features to [100000, 16]. -/
def layer2 (h : FVec Ideal S100000x64 .f32) (src dst : IVec S1600000 32) (w2 : FVec Ideal S64x16 .f32)
    (b2 : FVec Ideal S16 .f32) : FVec Ideal S100000x16 .f32 :=
  GraphSteps.finish (M := 100000) (N := 16)
    (hop16 src dst (GraphSteps.project (M := 100000) (K := 64) (N := 16) h (countColumn (edgeCount src)) w2))
    (countColumn (edgeCount dst)) (shapeCast S1x16 b2 shapeCasts_S16_S1x16)

/-- The network. -/
def network (emb : FVec Ideal S100000x128 .f32) (src dst : IVec S1600000 32) (w1 : FVec Ideal S128x64 .f32)
    (b1 : FVec Ideal S64 .f32) (w2 : FVec Ideal S64x16 .f32) (b2 : FVec Ideal S16 .f32) : FVec Ideal S100000x16 .f32 :=
  layer2 (layer1 emb src dst w1 b1) src dst w2 b2

end Cert.KernelIdeal.Layers

end
-- ==== Proof.StretchesA.lean ====
/-
  The host operations before the first region and between the second and third, read.

  Before the first region the program counts, for every node, the edges that leave it and the edges that arrive at
  it, and views the first count as a column; nothing else is written, so the seven arguments are still what the
  launch memory holds. Between the second and third regions the only operation views the leaving count as a column
  again; every other buffer passes through.
-/
import proofs.«159741_j49761491091779_1_alg».proof.Proof.Gen.KernelIdeal.Frame
import proofs.«159741_j49761491091779_1_alg».proof.Proof.LayerTerms
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The arguments as arrays of the launch memory. -/
abbrev inEmb : FVec Ideal S100000x128 .f32 := m ((c : Thread nD τ).loc main_arg0)
abbrev inSrc : IVec S1600000 32 := m ((c : Thread nD τ).loc main_arg1)
abbrev inDst : IVec S1600000 32 := m ((c : Thread nD τ).loc main_arg2)
abbrev inW1 : FVec Ideal S128x64 .f32 := m ((c : Thread nD τ).loc main_arg3)
abbrev inB1 : FVec Ideal S64 .f32 := m ((c : Thread nD τ).loc main_arg4)
abbrev inW2 : FVec Ideal S64x16 .f32 := m ((c : Thread nD τ).loc main_arg5)
abbrev inB2 : FVec Ideal S16 .f32 := m ((c : Thread nD τ).loc main_arg6)

/-! ## Before the first region -/

theorem first_arg0 : W1 m ρ c (Proc.devRef .tc main_arg0) = m ((c : Thread nD τ).loc main_arg0) := by
  show StableHlo.after hostOps0 (W0 m ρ c) (Proc.devRef .tc main_arg0) = _
  after_results <;> rfl
theorem first_arg1 : W1 m ρ c (Proc.devRef .tc main_arg1) = m ((c : Thread nD τ).loc main_arg1) := by
  show StableHlo.after hostOps0 (W0 m ρ c) (Proc.devRef .tc main_arg1) = _
  after_results <;> rfl
theorem first_arg2 : W1 m ρ c (Proc.devRef .tc main_arg2) = m ((c : Thread nD τ).loc main_arg2) := by
  show StableHlo.after hostOps0 (W0 m ρ c) (Proc.devRef .tc main_arg2) = _
  after_results <;> rfl
theorem first_arg3 : W1 m ρ c (Proc.devRef .tc main_arg3) = m ((c : Thread nD τ).loc main_arg3) := by
  show StableHlo.after hostOps0 (W0 m ρ c) (Proc.devRef .tc main_arg3) = _
  after_results <;> rfl
theorem first_arg4 : W1 m ρ c (Proc.devRef .tc main_arg4) = m ((c : Thread nD τ).loc main_arg4) := by
  show StableHlo.after hostOps0 (W0 m ρ c) (Proc.devRef .tc main_arg4) = _
  after_results <;> rfl
theorem first_arg5 : W1 m ρ c (Proc.devRef .tc main_arg5) = m ((c : Thread nD τ).loc main_arg5) := by
  show StableHlo.after hostOps0 (W0 m ρ c) (Proc.devRef .tc main_arg5) = _
  after_results <;> rfl
theorem first_arg6 : W1 m ρ c (Proc.devRef .tc main_arg6) = m ((c : Thread nD τ).loc main_arg6) := by
  show StableHlo.after hostOps0 (W0 m ρ c) (Proc.devRef .tc main_arg6) = _
  after_results <;> rfl

theorem first_v3 : W1 m ρ c (Proc.devRef .tc main_v3) = edgeCount (inSrc m c) := by
  show StableHlo.after hostOps0 (W0 m ρ c) (Proc.devRef .tc main_v3) = _
  after_results <;> rfl

theorem first_v6 : W1 m ρ c (Proc.devRef .tc main_v6) = edgeCount (inDst m c) := by
  show StableHlo.after hostOps0 (W0 m ρ c) (Proc.devRef .tc main_v6) = _
  after_results <;> rfl

theorem first_v7 : W1 m ρ c (Proc.devRef .tc main_v7) = countColumn (edgeCount (inSrc m c)) := by
  show StableHlo.after hostOps0 (W0 m ρ c) (Proc.devRef .tc main_v7) = _
  after_results <;> rfl

/-! ## Between the second and third regions -/

theorem third_v22 : W5 m ρ c (Proc.devRef .tc main_v22) = countColumn (W4 m ρ c (Proc.devRef .tc main_v3)) := by
  show StableHlo.after hostOps2 (W4 m ρ c) (Proc.devRef .tc main_v22) = _
  after_results <;> rfl

theorem third_v21 : W5 m ρ c (Proc.devRef .tc main_v21) = W4 m ρ c (Proc.devRef .tc main_v21) := by
  show StableHlo.after hostOps2 (W4 m ρ c) (Proc.devRef .tc main_v21) = _
  after_results <;> rfl

theorem third_arg5 : W5 m ρ c (Proc.devRef .tc main_arg5) = W4 m ρ c (Proc.devRef .tc main_arg5) := by
  show StableHlo.after hostOps2 (W4 m ρ c) (Proc.devRef .tc main_arg5) = _
  after_results <;> rfl

theorem third_arg1 : W5 m ρ c (Proc.devRef .tc main_arg1) = W4 m ρ c (Proc.devRef .tc main_arg1) := by
  show StableHlo.after hostOps2 (W4 m ρ c) (Proc.devRef .tc main_arg1) = _
  after_results <;> rfl

theorem third_arg2 : W5 m ρ c (Proc.devRef .tc main_arg2) = W4 m ρ c (Proc.devRef .tc main_arg2) := by
  show StableHlo.after hostOps2 (W4 m ρ c) (Proc.devRef .tc main_arg2) = _
  after_results <;> rfl

theorem third_arg6 : W5 m ρ c (Proc.devRef .tc main_arg6) = W4 m ρ c (Proc.devRef .tc main_arg6) := by
  show StableHlo.after hostOps2 (W4 m ρ c) (Proc.devRef .tc main_arg6) = _
  after_results <;> rfl

theorem third_v6 : W5 m ρ c (Proc.devRef .tc main_v6) = W4 m ρ c (Proc.devRef .tc main_v6) := by
  show StableHlo.after hostOps2 (W4 m ρ c) (Proc.devRef .tc main_v6) = _
  after_results <;> rfl

end Cert.KernelIdeal.Layers

end
-- ==== Proof.StretchesB.lean ====
/-
  The host operations between the first and second regions and between the third and fourth, read.

  Each stretch moves the projected rows along the edges (gather at the wrapped sources, scatter-add into zeros at the
  destinations), views the arriving count as a column and the layer's bias as one row; every other buffer passes
  through.
-/
import proofs.«159741_j49761491091779_1_alg».proof.Proof.Gen.KernelIdeal.Frame
import proofs.«159741_j49761491091779_1_alg».proof.Proof.LayerTerms
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Between the first and second regions -/

theorem second_v18 : W3 m ρ c (Proc.devRef .tc main_v18)
    = hop64 (W2 m ρ c (Proc.devRef .tc main_arg1)) (W2 m ρ c (Proc.devRef .tc main_arg2)) (W2 m ρ c (Proc.devRef .tc main_v8)) := by
  show StableHlo.after hostOps1 (W2 m ρ c) (Proc.devRef .tc main_v18) = _
  after_results <;> rfl

theorem second_v19 : W3 m ρ c (Proc.devRef .tc main_v19) = countColumn (W2 m ρ c (Proc.devRef .tc main_v6)) := by
  show StableHlo.after hostOps1 (W2 m ρ c) (Proc.devRef .tc main_v19) = _
  after_results <;> rfl

theorem second_v20 : W3 m ρ c (Proc.devRef .tc main_v20)
    = shapeCast S1x64 (W2 m ρ c (Proc.devRef .tc main_arg4)) Facts₀.shapeCasts_S64_S1x64 := by
  show StableHlo.after hostOps1 (W2 m ρ c) (Proc.devRef .tc main_v20) = _
  after_results <;> rfl

theorem second_arg1 : W3 m ρ c (Proc.devRef .tc main_arg1) = W2 m ρ c (Proc.devRef .tc main_arg1) := by
  show StableHlo.after hostOps1 (W2 m ρ c) (Proc.devRef .tc main_arg1) = _
  after_results <;> rfl

theorem second_arg2 : W3 m ρ c (Proc.devRef .tc main_arg2) = W2 m ρ c (Proc.devRef .tc main_arg2) := by
  show StableHlo.after hostOps1 (W2 m ρ c) (Proc.devRef .tc main_arg2) = _
  after_results <;> rfl

theorem second_arg5 : W3 m ρ c (Proc.devRef .tc main_arg5) = W2 m ρ c (Proc.devRef .tc main_arg5) := by
  show StableHlo.after hostOps1 (W2 m ρ c) (Proc.devRef .tc main_arg5) = _
  after_results <;> rfl

theorem second_arg6 : W3 m ρ c (Proc.devRef .tc main_arg6) = W2 m ρ c (Proc.devRef .tc main_arg6) := by
  show StableHlo.after hostOps1 (W2 m ρ c) (Proc.devRef .tc main_arg6) = _
  after_results <;> rfl

theorem second_v3 : W3 m ρ c (Proc.devRef .tc main_v3) = W2 m ρ c (Proc.devRef .tc main_v3) := by
  show StableHlo.after hostOps1 (W2 m ρ c) (Proc.devRef .tc main_v3) = _
  after_results <;> rfl

theorem second_v6 : W3 m ρ c (Proc.devRef .tc main_v6) = W2 m ρ c (Proc.devRef .tc main_v6) := by
  show StableHlo.after hostOps1 (W2 m ρ c) (Proc.devRef .tc main_v6) = _
  after_results <;> rfl

/-! ## Between the third and fourth regions -/

theorem fourth_v33 : W7 m ρ c (Proc.devRef .tc main_v33)
    = hop16 (W6 m ρ c (Proc.devRef .tc main_arg1)) (W6 m ρ c (Proc.devRef .tc main_arg2)) (W6 m ρ c (Proc.devRef .tc main_v23)) := by
  show StableHlo.after hostOps3 (W6 m ρ c) (Proc.devRef .tc main_v33) = _
  after_results <;> rfl

theorem fourth_v34 : W7 m ρ c (Proc.devRef .tc main_v34) = countColumn (W6 m ρ c (Proc.devRef .tc main_v6)) := by
  show StableHlo.after hostOps3 (W6 m ρ c) (Proc.devRef .tc main_v34) = _
  after_results <;> rfl

theorem fourth_v35 : W7 m ρ c (Proc.devRef .tc main_v35)
    = shapeCast S1x16 (W6 m ρ c (Proc.devRef .tc main_arg6)) Facts₀.shapeCasts_S16_S1x16 := by
  show StableHlo.after hostOps3 (W6 m ρ c) (Proc.devRef .tc main_v35) = _
  after_results <;> rfl

end Cert.KernelIdeal.Layers

end
-- ==== Proof.KernelRun.lean ====
/-
  The program's run with the result named.

  The program is four kernel regions among stretches of host operations. Its run is assembled once from the
  segments — a stretch of host operations moves the buffer contents by the operations' pure functions, a region
  leaves each of its arrays at what its write-backs folded and every other buffer as it found it —, and the contents
  at the last boundary are what every final state holds in every buffer that outlives a region. The assembly is the
  one that shows the program runs and leaves its arguments alone; here its reading of the final state is kept whole,
  so that the result buffer is named too.
-/
import proofs.«159741_j49761491091779_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each buffer that
    outlives a region holds the contents the last boundary gives it. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at the result buffer and at the seven arguments. -/
theorem run_result : θ_run defs (onTc (τ := τ) (main (F := F))) ⟨m, fun _ => 0, ρ⟩ (fun r => ∀ c : Dev nD,
      r.2.mem ((c.tc : Thread nD τ).loc main_v36) = W8 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v36 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_boundary m ρ)

end Cert.KernelIdeal.Layers

end
-- ==== Proof.KernelValue.lean ====
/-
  The kernel's result as the network of its arguments.

  The contents of the buffers are followed from the launch to the return, boundary by boundary: a stretch of host
  operations is read off its operations, a region leaves its result array at the dense step of the arrays it was
  handed (modules Region0 … Region3) and everything else alone. The counts are computed once before the first
  region and never overwritten, so every later reading of a count column is of the same count; the arguments are
  never written. Composed, the result buffer at the return is the two layers of module LayerTerms applied to the
  launch memory's arguments.
-/
import proofs.«159741_j49761491091779_1_alg».proof.Proof.Region0
import proofs.«159741_j49761491091779_1_alg».proof.Proof.Region1
import proofs.«159741_j49761491091779_1_alg».proof.Proof.Region2
import proofs.«159741_j49761491091779_1_alg».proof.Proof.Region3
import proofs.«159741_j49761491091779_1_alg».proof.Proof.StretchesA
import proofs.«159741_j49761491091779_1_alg».proof.Proof.StretchesB
import proofs.«159741_j49761491091779_1_alg».proof.Proof.KernelRun

set_option maxRecDepth 16384

noncomputable section

namespace Cert.KernelIdeal.Layers

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## After the first region -/

/-- The first region leaves the first layer's projection. -/
theorem at2_v8 : W2 m ρ c (Proc.devRef .tc main_v8)
    = GraphSteps.project (M := 100000) (K := 128) (N := 64) (inEmb m c) (countColumn (edgeCount (inSrc m c))) (inW1 m c) := by
  refine (W2_arr m ρ c 3).trans ((region0_value (V1 m ρ) c).trans ?_)
  show proj0 (W1 m ρ c (Proc.devRef .tc main_arg0)) (W1 m ρ c (Proc.devRef .tc main_v7)) (W1 m ρ c (Proc.devRef .tc main_arg3)) = _
  rw [first_arg0, first_v7, first_arg3]

/-! ## After the second region -/

/-- The second region leaves the first layer. -/
theorem at4_v21 : W4 m ρ c (Proc.devRef .tc main_v21) = layer1 (inEmb m c) (inSrc m c) (inDst m c) (inW1 m c) (inB1 m c) := by
  refine (W4_arr m ρ c 3).trans ((region1_value (V3 m ρ) c).trans ?_)
  show fin1 (W3 m ρ c (Proc.devRef .tc main_v18)) (W3 m ρ c (Proc.devRef .tc main_v19)) (W3 m ρ c (Proc.devRef .tc main_v20)) = _
  rw [second_v18, second_v19, second_v20, at2_v8, W2_of_ne m ρ c main_arg1 (by decide), W2_of_ne m ρ c main_arg2 (by decide),
    W2_of_ne m ρ c main_v6 (by decide), W2_of_ne m ρ c main_arg4 (by decide), first_arg1, first_arg2, first_v6, first_arg4]
  rfl

theorem at4_arg1 : W4 m ρ c (Proc.devRef .tc main_arg1) = inSrc m c := by
  rw [W4_of_ne m ρ c main_arg1 (by decide), second_arg1, W2_of_ne m ρ c main_arg1 (by decide), first_arg1]

theorem at4_arg2 : W4 m ρ c (Proc.devRef .tc main_arg2) = inDst m c := by
  rw [W4_of_ne m ρ c main_arg2 (by decide), second_arg2, W2_of_ne m ρ c main_arg2 (by decide), first_arg2]

theorem at4_arg5 : W4 m ρ c (Proc.devRef .tc main_arg5) = inW2 m c := by
  rw [W4_of_ne m ρ c main_arg5 (by decide), second_arg5, W2_of_ne m ρ c main_arg5 (by decide), first_arg5]

theorem at4_arg6 : W4 m ρ c (Proc.devRef .tc main_arg6) = inB2 m c := by
  rw [W4_of_ne m ρ c main_arg6 (by decide), second_arg6, W2_of_ne m ρ c main_arg6 (by decide), first_arg6]

theorem at4_v3 : W4 m ρ c (Proc.devRef .tc main_v3) = edgeCount (inSrc m c) := by
  rw [W4_of_ne m ρ c main_v3 (by decide), second_v3, W2_of_ne m ρ c main_v3 (by decide), first_v3]

theorem at4_v6 : W4 m ρ c (Proc.devRef .tc main_v6) = edgeCount (inDst m c) := by
  rw [W4_of_ne m ρ c main_v6 (by decide), second_v6, W2_of_ne m ρ c main_v6 (by decide), first_v6]

/-! ## After the third region -/

/-- The third region leaves the second layer's projection of the first layer. -/
theorem at6_v23 : W6 m ρ c (Proc.devRef .tc main_v23)
    = GraphSteps.project (M := 100000) (K := 64) (N := 16) (layer1 (inEmb m c) (inSrc m c) (inDst m c) (inW1 m c) (inB1 m c))
        (countColumn (edgeCount (inSrc m c))) (inW2 m c) := by
  refine (W6_arr m ρ c 3).trans ((region2_value (V5 m ρ) c).trans ?_)
  show proj2 (W5 m ρ c (Proc.devRef .tc main_v21)) (W5 m ρ c (Proc.devRef .tc main_v22)) (W5 m ρ c (Proc.devRef .tc main_arg5)) = _
  rw [third_v21, third_v22, third_arg5, at4_v21, at4_v3, at4_arg5]

theorem at6_arg1 : W6 m ρ c (Proc.devRef .tc main_arg1) = inSrc m c := by
  rw [W6_of_ne m ρ c main_arg1 (by decide), third_arg1, at4_arg1]

theorem at6_arg2 : W6 m ρ c (Proc.devRef .tc main_arg2) = inDst m c := by
  rw [W6_of_ne m ρ c main_arg2 (by decide), third_arg2, at4_arg2]

theorem at6_arg6 : W6 m ρ c (Proc.devRef .tc main_arg6) = inB2 m c := by
  rw [W6_of_ne m ρ c main_arg6 (by decide), third_arg6, at4_arg6]

theorem at6_v6 : W6 m ρ c (Proc.devRef .tc main_v6) = edgeCount (inDst m c) := by
  rw [W6_of_ne m ρ c main_v6 (by decide), third_v6, at4_v6]

/-! ## At the return -/

/-- The fourth region leaves the network's result. -/
theorem at8_v36 : W8 m ρ c (Proc.devRef .tc main_v36)
    = network (inEmb m c) (inSrc m c) (inDst m c) (inW1 m c) (inB1 m c) (inW2 m c) (inB2 m c) := by
  refine (W8_arr m ρ c 3).trans ((region3_value (V7 m ρ) c).trans ?_)
  show fin3 (W7 m ρ c (Proc.devRef .tc main_v33)) (W7 m ρ c (Proc.devRef .tc main_v34)) (W7 m ρ c (Proc.devRef .tc main_v35)) = _
  rw [fourth_v33, fourth_v34, fourth_v35, at6_v23, at6_arg1, at6_arg2, at6_v6, at6_arg6]
  rfl

/-- Every weakly fair execution of the idealized kernel terminates without a fault with the network of the launch
    memory's arguments in the result buffer, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36)
        = network (inEmb m c) (inSrc m c) (inDst m c) (inW1 m c) (inB1 m c) (inW2 m c) (inB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (at8_v36 m ρ c), (h c).2⟩) (run_result m ρ)

end Cert.KernelIdeal.Layers

end
-- ==== Proof.ReferenceValue.lean ====
/-
  The reference's result as the network of its arguments.

  The reference is one line of host operations. Its result, as a term of the arguments, has the counts, their
  clamp and inverse square root, the spreading of a count and of a bias over a matrix, two matrix products, two
  gathers and two scatter-adds. The dense parts are the host spellings of the specification's steps (module
  LibGraphSteps: host_project, host_finishClamped, host_finish); the counts and the moves along the edges are the very
  operations module LayerTerms names. Rewriting the four dense parts leaves the network, literally.
-/
import proofs.«159741_j49761491091779_1_alg».proof.Proof.Gen.ReferenceIdeal.Run
import proofs.«159741_j49761491091779_1_alg».proof.Proof.LayerTerms

set_option maxRecDepth 16384

noncomputable section

namespace Cert.ReferenceIdeal.Net

open Cert.ReferenceIdeal Cert.ReferenceIdeal.Gen Cert.ReferenceIdeal.Value
open Idealize.ShloMosaic Idealize.ShloMosaic.TcCoe Idealize.SL.Sem

/-- The reference's composed result is the network of the launch memory's arguments. -/
theorem result_eq (m : (ℓ : Loc nD τ sig) → Buf (Elt Ideal) ℓ) (c : Dev nD) :
    res_main_v53 m c = Cert.KernelIdeal.Layers.network
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  unfold res_main_v53
  rw [GraphSteps.host_finish (N := 16) _ _ _ _ Cert.KernelIdeal.Facts₀.shapeCasts_S100000_S100000x1 _ _
        Cert.KernelIdeal.Facts₀.shapeCasts_S16_S1x16,
    GraphSteps.host_project dot_S100000x64_S64x16_S100000x16_1_0_0_1_n_n rfl _ _ _ _
        Cert.KernelIdeal.Facts₀.shapeCasts_S100000_S100000x1,
    GraphSteps.host_finishClamped (N := 64) _ _ _ _ Cert.KernelIdeal.Facts₀.shapeCasts_S100000_S100000x1 _ _
        Cert.KernelIdeal.Facts₀.shapeCasts_S64_S1x64 _ _,
    GraphSteps.host_project dot_S100000x128_S128x64_S100000x64_1_0_0_1_n_n rfl _ _ _ _
        Cert.KernelIdeal.Facts₀.shapeCasts_S100000_S100000x1]
  rfl

end Cert.ReferenceIdeal.Net

end
-- ==== Proof.lean ====
/-
  Two graph-convolution layers: a tiled kernel against its plain reference, equal over the extended reals.

  Both programs take node features [100000, 128], the two ends src, dst of 1600000 edges, and two weight / bias
  pairs, and compute

      layer (x) = (A (x · s_out) W) · s_in + b,     out = layer2 (max (layer1 (emb), 0)),

  where s_out, s_in scale row r by 1 / sqrt (max (count, 1)) of the edges leaving / arriving at node r, and A moves
  rows along the edges (gather at the sources, add up at the destinations). The reference does every step on whole
  arrays with host operations. The kernel computes the counts and the moves with the same host operations, and the
  two dense steps of each layer — scale the rows and multiply; scale the rows, add the bias, clamp — in four tiled
  regions of ten row blocks each.

  A row of a dense step's result reads only that row of its operands, so a region's ten written blocks are the rows
  of the step applied to the whole arrays (Region0 … Region3); the host stretches between the regions are read off
  their operations (StretchesA, StretchesB); chained from the launch to the return the kernel's result buffer holds
  the network of the arguments (KernelValue, over the run of KernelRun). The reference's composed term is the same
  network once its dense parts are recognised as the host spellings of the same steps (ReferenceValue). No law of
  arithmetic beyond reading both sides entry by entry is used: in particular nothing needs the inputs to be finite.
  The kernel's idealization rewrote nothing, so there is nothing to preserve.
-/
import proofs.«159741_j49761491091779_1_alg».proof.Defs
import proofs.«159741_j49761491091779_1_alg».proof.Proof.Gen.Kernel
import proofs.«159741_j49761491091779_1_alg».proof.Proof.Gen.Kernel.Skeleton
import proofs.«159741_j49761491091779_1_alg».proof.Proof.Gen.Kernel.Launch
import proofs.«159741_j49761491091779_1_alg».proof.Proof.Gen.Kernel.Points
import proofs.«159741_j49761491091779_1_alg».proof.Proof.Gen.Kernel.Frame
import proofs.«159741_j49761491091779_1_alg».proof.Proof.Gen.KernelIdeal
import proofs.«159741_j49761491091779_1_alg».proof.Proof.Gen.KernelIdeal.Skeleton
import proofs.«159741_j49761491091779_1_alg».proof.Proof.Gen.KernelIdeal.Launch
import proofs.«159741_j49761491091779_1_alg».proof.Proof.Gen.KernelIdeal.Points
import proofs.«159741_j49761491091779_1_alg».proof.Proof.Gen.KernelIdeal.Frame
import proofs.«159741_j49761491091779_1_alg».proof.Proof.Gen.ReferenceIdeal
import proofs.«159741_j49761491091779_1_alg».proof.Proof.Gen.Pre_finite_inputs
import proofs.«159741_j49761491091779_1_alg».proof.Proof.Gen.ReferenceIdeal.Run
import proofs.«159741_j49761491091779_1_alg».proof.Proof.KernelValue
import proofs.«159741_j49761491091779_1_alg».proof.Proof.ReferenceValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the network of those arguments. -/
theorem algebraic : Cert.algebraic_KernelIdeal_ReferenceIdeal := by
  intro m ρ m' ρ' _ hagree
  refine ⟨_, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Net.result_eq m' c, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
